-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S2x16x128 : Shape := ⟨3, ![2, 16, 128]⟩
abbrev S16384x128 : Shape := ⟨2, ![16384, 128]⟩
abbrev S1x16x128 : Shape := ⟨3, ![1, 16, 128]⟩
abbrev S16x128 : Shape := ⟨2, ![16, 128]⟩
abbrev S128 : Shape := ⟨1, ![128]⟩
abbrev S1x128 : Shape := ⟨2, ![1, 128]⟩
abbrev S6x128 : Shape := ⟨2, ![6, 128]⟩
abbrev S_ : Shape := ⟨0, ![]⟩
abbrev S16 : Shape := ⟨1, ![16]⟩
abbrev S10 : Shape := ⟨1, ![10]⟩

abbrev nBuf : Space → Nat
  | .hbm => 13
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S2x16x128, .f32⟩
  | .hbm, ⟨5, _⟩ => ⟨S_, .f32⟩
  | .hbm, ⟨6, _⟩ => ⟨S16, .f32⟩
  | .hbm, ⟨7, _⟩ => ⟨S10, .f32⟩
  | .hbm, ⟨8, _⟩ => ⟨S10, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x16x128, .f32⟩
  | .local _ .vmem, ⟨5, _⟩ => ⟨S1x16x128, .f32⟩
  | .local _ .vmem, ⟨6, _⟩ => ⟨S16x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_31 : BitVec 32 := 7#32
  let v83 : BitVec 1 := Scalar.cmpi .eq arg1 c7_i32_31
  let v84 : BitVec 32 := Scalar.extui v83
  let c0_i32_32 : BitVec 32 := 0#32
  let v85 : BitVec 1 := Scalar.cmpi .ne v84 c0_i32_32
  v85

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S128 : S16384x128.Reduces [0] S128
  shapeCasts_S128_S1x128 : S128.ShapeCasts S1x128
  concatenates_S1x128_S1x128_S1x128_S1x128_S1x128_S1x128_S1x128_S1x128_S1x128_S1x128_S6x128_S16x128_d0 : Shape.Concatenates [S1x128, S1x128, S1x128, S1x128, S1x128, S1x128, S1x128, S1x128, S1x128, S1x128, S6x128] S16x128 0
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16_d0_2 : S2x16x128.ReducesTo [0, 2] S16
  h_S_ : 0 < S_.numel
  slices_S16_S10_0 : S16.Slices ![0] S10
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S11 : Shape := ⟨1, ![11]⟩
abbrev S33554432x1 : Shape := ⟨2, ![33554432, 1]⟩
abbrev S10 : Shape := ⟨1, ![10]⟩

abbrev nBuf : Space → Nat
  | .hbm => 31
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S33554432, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S_, .i32⟩
  | .hbm, ⟨13, _⟩ => ⟨S33554432, .i32⟩
  | .hbm, ⟨14, _⟩ => ⟨S33554432, .i32⟩
  | .hbm, ⟨15, _⟩ => ⟨S_, .f32⟩
  | .hbm, ⟨16, _⟩ => ⟨S11, .f32⟩
  | .hbm, ⟨17, _⟩ => ⟨S33554432x1, .i32⟩
  | .hbm, ⟨18, _⟩ => ⟨S11, .f32⟩
  | .hbm, ⟨19, _⟩ => ⟨S_, .f32⟩
  | .hbm, ⟨20, _⟩ => ⟨S11, .f32⟩
  | .hbm, ⟨21, _⟩ => ⟨S33554432x1, .i32⟩
  | .hbm, ⟨22, _⟩ => ⟨S11, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S10, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S11 : S_.BroadcastsInDim S11 (![] : Fin 0 → Fin S11.rank)
  bcast_S33554432_S33554432x1_0 : S33554432.BroadcastsInDim S33554432x1 (![0] : Fin 1 → Fin S33554432x1.rank)
  slices_S11_S10_0 : S11.Slices ![0] S10
  reducesTo_S10_S_d0 : S10.ReducesTo [0] S_
  h_S_ : 0 < S_.numel
  scatter_S11_S33554432x1_S33554432_n_0_0_1_wf : ScatterDims.WF S11 S33554432x1 S33554432 [] [0] [0] 1

variable [Facts₀]

def scatter_S11_S33554432x1_S33554432_n_0_0_1 : ScatterDims S11 S33554432x1 S33554432 where
  updateWindowDims := []
  insertedWindowDims := [0]
  scatterDimsToOperandDims := [0]
  indexVectorDim := 1
  wf := scatter_S11_S33554432x1_S33554432_n_0_0_1_wf

class Facts : Prop extends Facts₀ where

variable [Facts]
-- ==== Proof.LibSums.lean ====
/-
  Three facts about finite sums.

  Over the extended reals a difference of two sums is the sum of the differences only when nothing is infinite.  Here:
  the coercion of a finite sum of real numbers is the sum of the coercions; for real-valued families a and b and any
  mask p, (the sum of a over p) - (the sum of b over p) is the sum of a - b over p, as extended reals; and a sum over
  the first A * B natural numbers is the iterated sum over a < A and b < B of the term at a * B + b.
-/
import Mathlib.Data.EReal.Operations
import Mathlib.Algebra.BigOperators.Intervals
import Mathlib.Tactic.SplitIfs

noncomputable section

namespace Cert.Sums

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- THE LAW: over real values, the masked sum of the x's minus the masked sum of the y's is the masked sum of the
    differences. -/
theorem sub_masked_sums {ι : Type} (s : Finset ι) (p : ι → Prop) [DecidablePred p] (a b : ι → ℝ) :
    (∑ i ∈ s, if p i then (a i : EReal) else 0) - (∑ i ∈ s, if p i then (b i : EReal) else 0)
      = ∑ i ∈ s, if p i then ((a i : EReal) - (b i : EReal)) else 0 := by
  have h1 : ∀ f : ι → ℝ, (∑ i ∈ s, if p i then (f i : EReal) else 0) = ((∑ i ∈ s, if p i then f i else 0 : ℝ) : EReal) := by
    intro f
    rw [coe_sum]
    refine Finset.sum_congr rfl fun i _ => ?_
    split_ifs <;> simp
  rw [h1 a, h1 b, ← EReal.coe_sub, ← Finset.sum_sub_distrib, coe_sum]
  refine Finset.sum_congr rfl fun i _ => ?_
  split_ifs <;> simp

/-- A sum over a product range is the iterated sum, major index first. -/
theorem sum_range_mul {M : Type} [AddCommMonoid M] (A B : ℕ) (g : ℕ → M) :
    ∑ e ∈ Finset.range (A * B), g e = ∑ a ∈ Finset.range A, ∑ b ∈ Finset.range B, g (a * B + b) := by
  induction A with
  | zero => simp
  | succ A ih => rw [Nat.succ_mul, Finset.sum_range_add, ih, Finset.sum_range_succ]

end Cert.Sums

end
-- ==== Proof.Spec.lean ====
/-
  The calibration-error statistic both programs compute, and the algebra that joins their two arrangements.

  Each of the 2^25 elements has a confidence x and a correctness y.  Its bin is floor(10 x) as a 32-bit integer
  clamped to [0, 10]; bin 10 (confidence 1 and above) is dropped.  For each bin b < 10 the statistic needs
  S_b = sum over the elements of bin b of (x - y); the result is (sum over b < 10 of |S_b|) / 2^25.

  One program forms S_b as (sum of x over bin b) - (sum of y over bin b), the other adds x - y directly, tile by tile:
  the flat element index e is ((q * 8 + j) * 16384 + row) * 128 + l for core q < 2, tile j < 8, row < 16384 and lane
  l < 128.  The two agree when every x and y is a real number (a difference of sums is the sum of differences only
  away from the infinities), and a sum over the flat index is the iterated sum over (q, j, row, l) in any order.
-/
import Idealize.ShloMosaic.PureOps.Ideal
import Idealize.ShloMosaic.PureOps.Ideal.Laws
import Idealize.ShloMosaic.Lib.ValueIdx
import proofs.«149983_j14637248544967_2_alg».proof.Proof.LibSums

noncomputable section

namespace Cert.Calib

open Idealize.ShloMosaic Cert.Sums

/-- The bin of a confidence: floor(10 x) converted to a signed 32-bit integer, clamped below by 0 and above by 10. -/
def bin (x : Ideal .f32) : BitVec 32 :=
  IntOp.minsi 10#32 (IntOp.maxsi 0#32 (FloatOps.fptosi 32 (FloatOps.floor (FloatOps.mulf x
    (FloatOps.ofBits (F := Ideal) .f32 0x41200000#32)))))

/-- One element's contribution to bin b: x - y when x falls in b, nothing otherwise. -/
def term (b : BitVec 32) (x y : EReal) : EReal := if bin x = b then x - y else 0

/-- A select on an integer equality test is an if-then-else on the equality. -/
theorem select_cmpi_eq {α : Type} (a b : BitVec 32) (u v : α) :
    Scalar.select (IntOp.cmpi .eq a b) u v = if a = b then u else v := by
  show (if BitVec.ofBool (a == b) = 1 then u else v) = _
  by_cases h : a = b
  · subst h; simp
  · have hb : (a == b) = false := beq_eq_false_iff_ne.mpr h
    rw [hb, if_neg h]
    exact if_neg (by decide)

/-- The signed value of a small bin number is the number. -/
theorem toInt_ofNat_lt (r : Fin 11) : (BitVec.ofNat 32 r.val).toInt = (r.val : Int) := by
  revert r; decide

/-- A 32-bit word whose signed value is a small number is that number. -/
theorem eq_ofNat_iff (a : BitVec 32) (r : Fin 11) : a.toInt = (r.val : Int) ↔ a = BitVec.ofNat 32 r.val := by
  rw [← toInt_ofNat_lt r]
  exact BitVec.toInt_inj

/-- THE RE-INDEXING: the sum over the flat element index is the sum over cores, lanes, tiles and rows of the element
    at ((q * 8 + j) * 16384 + row) * 128 + l. -/
theorem sum_tiles {M : Type} [AddCommMonoid M] (g : ℕ → M) :
    ∑ q ∈ Finset.range 2, ∑ l ∈ Finset.range 128, ∑ j ∈ Finset.range 8, ∑ row ∈ Finset.range 16384,
        g (((8 * q + j) * 16384 + row) * 128 + l)
      = ∑ e ∈ Finset.range 33554432, g e := by
  rw [show (33554432 : ℕ) = 2 * (8 * (16384 * 128)) from by norm_num, sum_range_mul]
  refine Finset.sum_congr rfl fun q _ => ?_
  rw [sum_range_mul]
  rw [Finset.sum_comm]
  refine Finset.sum_congr rfl fun j _ => ?_
  rw [sum_range_mul, Finset.sum_comm]
  refine Finset.sum_congr rfl fun row _ => ?_
  refine Finset.sum_congr rfl fun l _ => ?_
  congr 1
  ring

end Cert.Calib

end
-- ==== Proof.Cases.lean ====
/-
  What one grid point leaves behind.  The body keeps a 16 x 128 accumulator: at the first tile of a core it is
  filled with zeros, at every tile the tile's stacked block is added to it, and at the last tile of a core the
  accumulator is copied, with a leading unit axis, into the output block.  The stacked block of a tile has, in row
  r < 10, the lane-wise sum over the tile's rows of (confidence - correctness) masked to the entries whose bin is
  r, and zeros in rows 10..15.  Here each of the three control cases of the body is read back as that one term of
  the tile's two input blocks and the accumulator found, at any float instance.
-/
import proofs.«149983_j14637248544967_2_alg».proof.Proof.Gen.KernelIdeal.Frame
import Idealize.ShloMosaic.Lib.Pipeline.Value
import Idealize.ShloMosaic.Lib.Tactic

set_option maxRecDepth 16384

noncomputable section

namespace Cert.KernelIdeal.Calib

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a tile: the accumulator before it plus the tile's stacked block (ten masked row sums of
    conf - corr, one per bin, over six rows of zeros), as the body computes it from the tile's two blocks. -/
def stack (x0 x1 : Vec F S16384x128 .f32) (acc : Vec F S16x128 .f32) : FVec F S16x128 .f32 :=
  k0_pay1 (k0_pay7 x0 x1) (k0_pay8 x0 x1) (k0_pay9 x0 x1) (k0_pay12 (k0_pay5 x0 x1) (k0_pay10 x0) k0_pay11)
    (k0_pay13 (k0_pay5 x0 x1) (k0_pay6 x0)) (k0_pay14 (k0_pay5 x0 x1) (k0_pay6 x0))
    (k0_pay15 (k0_pay5 x0 x1) (k0_pay6 x0)) (k0_pay16 (k0_pay5 x0 x1) (k0_pay6 x0))
    (k0_pay17 (k0_pay5 x0 x1) (k0_pay6 x0)) (k0_pay18 (k0_pay5 x0 x1) (k0_pay6 x0)) k0_pay19 acc

/-- A middle tile of a core: the accumulator found, plus the tile's stacked block. -/
theorem sout_B (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x16x128 .f32) (harg4 : arg4.IsWhole) (arg5 : Memref sig .tc .vmem S16x128 .f32) (harg5 : arg5.IsWhole) (hc0 : ¬cond0_0 i) (hc1 : ¬cond0_1 i)
    (x0 : Vec F S16384x128 .f32) (x1 : Vec F S16384x128 .f32) (xs0 : Vec F S16x128 .f32) :
    sout0_B_0 c i arg2 harg2 arg3 harg3 arg4 harg4 arg5 harg5 hc0 hc1 x0 x1 xs0 = stack x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S16384x128) hz2, View.ld_unit_zero (S := S16x128) hz2]
  rfl

/-- The first tile of a core: the zero fill, plus the tile's stacked block. -/
theorem sout_A (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x16x128 .f32) (harg4 : arg4.IsWhole) (arg5 : Memref sig .tc .vmem S16x128 .f32) (harg5 : arg5.IsWhole) (hc0 : cond0_0 i) (hc1 : ¬cond0_1 i)
    (x0 : Vec F S16384x128 .f32) (x1 : Vec F S16384x128 .f32) :
    sout0_A_0 c i arg2 harg2 arg3 harg3 arg4 harg4 arg5 harg5 hc0 hc1 x0 x1 = stack x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S16x128) hz2, View.readCov_unit_zero (S := S16x128) _ hz2]
  simp only [View.readAt_eq_ld, harg2.read_unread, harg3.read_unread, View.ld_unit_zero (S := S16384x128) hz2]
  rfl

/-- The last tile of a core, the accumulator: the accumulator found, plus the tile's stacked block. -/
theorem sout_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x16x128 .f32) (harg4 : arg4.IsWhole) (arg5 : Memref sig .tc .vmem S16x128 .f32) (harg5 : arg5.IsWhole) (hc0 : ¬cond0_0 i) (hc1 : cond0_1 i)
    (x0 : Vec F S16384x128 .f32) (x1 : Vec F S16384x128 .f32) (xs0 : Vec F S16x128 .f32) :
    sout0_C_0 c i arg2 harg2 arg3 harg3 arg4 harg4 arg5 harg5 hc0 hc1 x0 x1 xs0 = stack x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S16384x128) hz2, View.ld_unit_zero (S := S16x128) hz2]
  rfl

/-- The last tile of a core, the output block: that accumulator with a leading unit axis. -/
theorem out_C (c : Dev nD) (i : grid0.Coords) (arg2 : Memref sig .tc .vmem S16384x128 .f32) (harg2 : arg2.IsWhole) (arg3 : Memref sig .tc .vmem S16384x128 .f32) (harg3 : arg3.IsWhole) (arg4 : Memref sig .tc .vmem S1x16x128 .f32) (harg4 : arg4.IsWhole) (arg5 : Memref sig .tc .vmem S16x128 .f32) (harg5 : arg5.IsWhole) (hc0 : ¬cond0_0 i) (hc1 : cond0_1 i)
    (x0 : Vec F S16384x128 .f32) (x1 : Vec F S16384x128 .f32) (xs0 : Vec F S16x128 .f32) :
    out0_C_2 c i arg2 harg2 arg3 harg3 arg4 harg4 arg5 harg5 hc0 hc1 x0 x1 xs0 = k0_pay2 (stack x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S16x128) _ hz2]
  simp only [View.readAt_eq_ld, harg2.read_unread, harg3.read_unread, harg5.read_unread, View.ld_unit_zero (S := S16384x128) hz2, View.ld_unit_zero (S := S16x128) hz2]
  rfl

end Cert.KernelIdeal.Calib

end
-- ==== Proof.Accum.lean ====
/-
  The accumulator over a core's tiles, and the array the region leaves.  The grid is walked core by core, eight tiles
  per core.  After tile n the accumulator holds the stacked blocks of the tiles of n's core up to n, added in order
  onto the zero fill (a recursion on the point, restarting where n is a multiple of 8).  The output block of core q
  is written back once, after that core's last tile, so the 2 x 16 x 128 result array ends holding, for core q, the
  accumulator after tile 8 q + 7.
-/
import proofs.«149983_j14637248544967_2_alg».proof.Proof.Cases
import Idealize.ShloMosaic.Lib.ValueIdx

set_option maxRecDepth 16384

noncomputable section

namespace Cert.KernelIdeal.Calib

open Idealize.ShloMosaic Idealize.ShloMosaic.TcCoe Idealize.SL.Sem Cert.KernelIdeal Cert.KernelIdeal.Gen
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The accumulator after point n: at the first tile of a core the zero fill plus the tile's stacked block, at a
    later tile what the tile before left plus the tile's stacked block. -/
def accAfter (c : Dev nD) : (n : ℕ) → n < cfg0.N → Vec F S16x128 .f32
  | 0, h => stack (iblk m c 0 ⟨0, h⟩) (iblk m c 1 ⟨0, h⟩) (k0_pay3 (F := F))
  | n + 1, h =>
    if (n + 1) % 8 = 0 then stack (iblk m c 0 ⟨n + 1, h⟩) (iblk m c 1 ⟨n + 1, h⟩) (k0_pay3 (F := F))
    else stack (iblk m c 0 ⟨n + 1, h⟩) (iblk m c 1 ⟨n + 1, h⟩) (accAfter c n (Nat.lt_of_succ_lt h))

theorem accAfter_congr (c : Dev nD) {n n' : ℕ} (e : n = n') (h : n < cfg0.N) (h' : n' < cfg0.N) :
    accAfter m c n h = accAfter m c n' h' := by subst e; rfl

/-- What the run carries in the scratch after point n is that accumulator: by induction on the point. -/
theorem outsAt_snd (c : Dev nD) : ∀ (n : ℕ) (h : n < cfg0.N), (outsAt0 m c n h).2 = accAfter m c n h
  | 0, h => by
    rw [outsAt0_A m c ⟨0, h⟩ (Nat.zero_mod _) (by dsimp only; omega)]
    dsimp only
    rw [sout_A]
    rfl
  | n + 1, h => by
    have hN : cfg0.N = 16 := N_0
    by_cases h0 : (n + 1) % 8 = 0
    · have h1 : ¬ (n + 1) % 8 = 7 := by omega
      rw [outsAt0_A m c ⟨n + 1, h⟩ h0 h1]
      dsimp only
      rw [sout_A]
      simp only [accAfter, if_pos h0]
    · by_cases h1 : (n + 1) % 8 = 7
      · rw [outsAt0_C m c ⟨n + 1, h⟩ h0 h1]
        dsimp only
        rw [sout_C]
        show stack _ _ (outsAt0 m c n _).2 = _
        rw [outsAt_snd c n]
        simp only [accAfter, if_neg h0]
      · rw [outsAt0_B m c ⟨n + 1, h⟩ h0 h1]
        dsimp only
        rw [sout_B]
        show stack _ _ (outsAt0 m c n _).2 = _
        rw [outsAt_snd c n]
        simp only [accAfter, if_neg h0]

/-- At the last tile of a core the output block holds that accumulator under a leading unit axis. -/
theorem outsAt_fst (c : Dev nD) (t : Fin cfg0.N) (h7 : t.val % 8 = 7) :
    (outsAt0 m c t.val t.isLt).1 = k0_pay2 (accAfter m c t.val t.isLt) := by
  have h0 : ¬ t.val % 8 = 0 := by omega
  rw [outsAt0_C m c t h0 h7]
  dsimp only
  rw [out_C]
  obtain ⟨n, hn⟩ := t
  cases n with
  | zero => exact absurd (Nat.zero_mod _) h0
  | succ n =>
    show k0_pay2 (stack _ _ (outsAt0 m c n _).2) = _
    rw [outsAt_snd m c n]
    simp only [accAfter, if_neg h0]

end Cert.KernelIdeal.Calib

end
-- ==== Proof.Result.lean ====
/-
  The result array of the region.  Output block q (one per core) is written back once, after tile 8 q + 7, with the
  core's accumulator under a leading unit axis; the two blocks tile the 2 x 16 x 128 array.  So entry (q, r, l) of
  the array after the run is entry (r, l) of the accumulator after tile 8 q + 7.
-/
import proofs.«149983_j14637248544967_2_alg».proof.Proof.Accum
import Idealize.ShloMosaic.Lib.ValueLayout

set_option maxRecDepth 16384

noncomputable section

namespace Cert.KernelIdeal.Calib

open Idealize.ShloMosaic Idealize.ShloMosaic.TcCoe Idealize.SL.Sem Cert.KernelIdeal Cert.KernelIdeal.Gen
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The output's block index at point t is (t / 8, 0, 0): decided over the sixteen points. -/
theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- The array the region leaves: entry (q, r, l) is entry (r, l) of the accumulator after tile 8 q + 7. -/
def outArr (c : Dev nD) : Buf (Elt F) ((c : Thread nD τ).loc main_v2) := fun i =>
  accAfter m c (8 * (i 0).val + 7) (by
    have h : (i 0).val < 2 := (i 0).isLt
    have hN : cfg0.N = 16 := N_0
    omega) (ix2 (n0 := 16) (n1 := 128) (i 1) (i 2))

/-- That array read at coordinates given up to equality of values. -/
theorem outArr_apply (c : Dev nD) (i : S2x16x128.Idx) (n : ℕ) (hn : n < cfg0.N) (p : Fin 16) (q : Fin 128)
    (h0 : 8 * (i 0).val + 7 = n) (h1 : (i 1).val = p.val) (h2 : (i 2).val = q.val) :
    outArr m c i = accAfter m c n hn (ix2 p q) := by
  subst h0
  unfold outArr
  congr 1
  funext a
  match a with
  | ⟨0, _⟩ => exact Fin.ext h1
  | ⟨1, _⟩ => exact Fin.ext h2

/-- What a flushing point writes back is its block of that array. -/
theorem flushed_eq (c : Dev nD) (t : Fin cfg0.N) (hf : (cfg0.win 2).flush t = true) :
    (dats m 0 c).flushed 2 t = ((cfg0.win 2).blk t).view.read (Elt F) (outArr m c) := by
  have h7 : t.val % 8 = 7 := (flush0_2 t).mp hf
  have hN : cfg0.N = 16 := N_0
  obtain ⟨e0, e1, e2⟩ := out_index t
  show (cfg0.win 2).cut (grid0.coords t) ((dats m 0 c).after 2 t) = _
  rw [after0_2, outsAt_fst m c t h7]
  funext y
  rw [View.read_apply]
  show k0_pay2 (accAfter m c t.val t.isLt) y = outArr m c (((cfg0.win 2).blk t).view.emb y)
  obtain ⟨u, p, q, rfl⟩ : ∃ (u : Fin 1) (p : Fin 16) (q : Fin 128), y = ix3 u p q := ⟨y 0, y 1, y 2, eq_ix3 y⟩
  have hu : u.val = 0 := by omega
  refine (shapeCast_ab_1ab_apply (accAfter m c t.val t.isLt) shapeCasts_S16x128_S1x16x128 u p q).trans
    (outArr_apply m c _ t.val t.isLt p q ?_ ?_ ?_).symm
  · show 8 * (win0_2.index t (0 : Fin 3) * 1 + 1 * u.val) + 7 = t.val
    rw [e0]; omega
  · show win0_2.index t (1 : Fin 3) * 16 + 1 * p.val = p.val
    rw [e1]; omega
  · show win0_2.index t (2 : Fin 3) * 128 + 1 * q.val = q.val
    rw [e2]; omega

/-- An index of the result array lies in point t's block iff every coordinate lies in the block's range. -/
theorem mem_blk (t : Fin cfg0.N) (i : S2x16x128.Idx) :
    i ∈ ((cfg0.win 2).blk t).view.set ↔ ∀ a : Fin 3, win0_2.index t a * S1x16x128.size a ≤ (i a).val
      ∧ (i a).val < win0_2.index t a * S1x16x128.size a + S1x16x128.size a := by
  show i ∈ ((View.whole main_v2).slice (win0_2.rect t)).set ↔ _
  rw [View.set_slice_whole, Rect.mem_set_unit]
  exact Iff.rfl

/-- The two written-back blocks tile the array, so after the run it is `outArr`. -/
theorem final (c : Dev nD) : (dats m 0 c).arrAt 2 cfg0.N = outArr m c :=
  (dats m 0 c).arrAt_eq_of_cover 2 (outArr m c) (flushed_eq m c) fun i => by
    have hN : cfg0.N = 16 := N_0
    have h0 : (i 0).val < 2 := (i 0).isLt
    have h1 : (i 1).val < 16 := (i 1).isLt
    have h2 : (i 2).val < 128 := (i 2).isLt
    obtain ⟨e0, e1, e2⟩ := out_index ⟨8 * (i 0).val + 7, by omega⟩
    refine ⟨⟨8 * (i 0).val + 7, by omega⟩, (flush0_2 _).mpr (by show (8 * (i 0).val + 7) % 8 = 7; omega), ?_⟩
    rw [mem_blk]
    intro a
    match a with
    | ⟨0, _⟩ =>
      show win0_2.index ⟨8 * (i 0).val + 7, _⟩ (0 : Fin 3) * 1 ≤ (i 0).val
        ∧ (i 0).val < win0_2.index ⟨8 * (i 0).val + 7, _⟩ (0 : Fin 3) * 1 + 1
      rw [e0]; show (8 * (i 0).val + 7) / 8 * 1 ≤ (i 0).val ∧ (i 0).val < (8 * (i 0).val + 7) / 8 * 1 + 1; omega
    | ⟨1, _⟩ =>
      show win0_2.index ⟨8 * (i 0).val + 7, _⟩ (1 : Fin 3) * 16 ≤ (i 1).val
        ∧ (i 1).val < win0_2.index ⟨8 * (i 0).val + 7, _⟩ (1 : Fin 3) * 16 + 16
      rw [e1]; omega
    | ⟨2, _⟩ =>
      show win0_2.index ⟨8 * (i 0).val + 7, _⟩ (2 : Fin 3) * 128 ≤ (i 2).val
        ∧ (i 2).val < win0_2.index ⟨8 * (i 0).val + 7, _⟩ (2 : Fin 3) * 128 + 128
      rw [e2]; omega

/-- The host operations after the region, as one function of the region's result array: the sum over cores and
    lanes, the first ten rows, absolute values, their sum, divided by the element count 2^25. -/
def tailK (x : S2x16x128.Idx → Elt F .f32) : S_.Idx → Elt F .f32 :=
  Host.divf (Host.reduceAdd (Host.absf (extractStridedSlice S10 ![0]
    (Host.reduceAdd x (constant (F := F) S_ .f32 0x00000000#32) reducesTo_S2x16x128_S16_d0_2 h_S_) slices_S16_S10_0))
    (constant (F := F) S_ .f32 0x00000000#32) reducesTo_S10_S_d0 h_S_) (constant (F := F) S_ .f32 0x4C000000#32)

theorem tail_eq (c : Dev nD) :
    Pipeline.afterTail₀ cfgs (dats m) 0 (V0 m) [hostOps1] c main_v7 = tailK (outArr m c) := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v2) = outArr m c :=
    (Pipeline.withArrays_arr spec0 launch0.win.arr_inj c _ _ 2).trans (final m c)
  rw [e]
  rfl

end Cert.KernelIdeal.Calib

end
-- ==== Proof.Payload.lean ====
/-
  The stacked block of one tile, entry by entry.  Row r < 10 of the block is, lane by lane, the sum over the tile's
  16384 rows of (confidence - correctness) over the entries whose bin is r; the accumulator gains exactly that in
  its row r.  (Rows 10..15 gain zeros; they are never read afterwards.)
-/
import proofs.«149983_j14637248544967_2_alg».proof.Proof.Cases
import proofs.«149983_j14637248544967_2_alg».proof.Proof.Spec
import Idealize.ShloMosaic.Lib.ValueLayout
import Idealize.ShloMosaic.PureOps.Ideal.Laws

set_option maxRecDepth 16384

noncomputable section

namespace Cert.KernelIdeal.Calib

open Idealize.ShloMosaic Idealize.ShloMosaic.TcCoe Idealize.SL.Sem Cert.KernelIdeal Cert.KernelIdeal.Gen
open Idealize.ShloMosaic.ValueIdx Cert.Calib

/-- One row of a tile's stacked block: lane by lane, the sum over the tile's rows of d masked to the entries whose
    bin index is b, kept as a 1 x 128 row. -/
def rowpay {F : FTy → Type} [FloatOps F] (d : FVec F S16384x128 .f32) (idx : IVec S16384x128 32) (b : BitVec 32) :
    FVec F S1x128 .f32 :=
  shapeCast S1x128 (multiReduction .add [0] S128 (select (cmpi .eq idx (broadcast S16384x128 b)) d
    (broadcast S16384x128 (Scalar.ofBits (F := F) .f32 0x00000000#32))) 0x00000000#32 reduces_S16384x128_S128 (.inl rfl) rfl)
    shapeCasts_S128_S1x128

/-- The accumulator after a tile is the accumulator before plus the ten rows, bins 0 to 9 in order, over six rows of
    zeros. -/
theorem stack_eq {F : FTy → Type} [FloatOps F] (x0 x1 : Vec F S16384x128 .f32) (acc : Vec F S16x128 .f32) :
    stack x0 x1 acc = shapeCast S16x128 (addf acc (concatenate S16x128 0
      [⟨S1x128, rowpay (k0_pay5 x0 x1) (k0_pay6 x0) 0#32⟩,
      ⟨S1x128, rowpay (k0_pay5 x0 x1) (k0_pay6 x0) 1#32⟩,
      ⟨S1x128, rowpay (k0_pay5 x0 x1) (k0_pay6 x0) 2#32⟩,
      ⟨S1x128, rowpay (k0_pay5 x0 x1) (k0_pay6 x0) 3#32⟩,
      ⟨S1x128, rowpay (k0_pay5 x0 x1) (k0_pay6 x0) 4#32⟩,
      ⟨S1x128, rowpay (k0_pay5 x0 x1) (k0_pay6 x0) 5#32⟩,
      ⟨S1x128, rowpay (k0_pay5 x0 x1) (k0_pay6 x0) 6#32⟩,
      ⟨S1x128, rowpay (k0_pay5 x0 x1) (k0_pay6 x0) 7#32⟩,
      ⟨S1x128, rowpay (k0_pay5 x0 x1) (k0_pay6 x0) 8#32⟩,
      ⟨S1x128, rowpay (k0_pay5 x0 x1) (k0_pay6 x0) 9#32⟩,
      ⟨S6x128, broadcast S6x128 (Scalar.ofBits (F := F) .f32 0x00000000#32)⟩]
      concatenates_S1x128_S1x128_S1x128_S1x128_S1x128_S1x128_S1x128_S1x128_S1x128_S1x128_S6x128_S16x128_d0))
      shapeCasts_S16x128_S16x128 := rfl

/-- A row read at a lane: the sum over the tile's rows of the entries of d whose bin index is b. -/
theorem rowpay_apply (d : FVec Ideal S16384x128 .f32) (idx : IVec S16384x128 32) (b : BitVec 32) (l : Fin 128) :
    rowpay d idx b (ix2 (0 : Fin 1) l) = ∑ row : Fin 16384, if idx (ix2 row l) = b then d (ix2 row l) else 0 := by
  unfold rowpay
  refine (shapeCast_a_1a_apply _ shapeCasts_S128_S1x128 (0 : Fin 1) l).trans ?_
  refine (Ideal.multiReduction_add_single _ 0x00000000#32 reduces_S16384x128_S128 (.inl rfl) rfl (ix1 l)).trans ?_
  refine Finset.sum_congr rfl fun row _ => ?_
  have e : reduces_S16384x128_S128.lift (ix1 l) row = ix2 row l := by
    funext a
    apply Fin.ext
    match a with
    | ⟨0, _⟩ => rfl
    | ⟨1, _⟩ => rfl
  rw [e]
  show Scalar.select (IntOp.cmpi .eq (idx (ix2 row l)) b) (d (ix2 row l)) (Ideal.ofBits .f32 0x00000000#32) = _
  rw [select_cmpi_eq, Ideal.ofBits_zero_f32]

/-- The difference stream of a tile: confidence minus correctness, entry by entry. -/
theorem pay5_eq (x0 x1 : FVec Ideal S16384x128 .f32) : k0_pay5 (F := Ideal) x0 x1 = fun i => x0 i - x1 i := by
  simp only [k0_pay5, k0_pay4, shapeCast_self]
  rfl

/-- The bin index of a tile, entry by entry. -/
theorem pay6_eq (x0 : FVec Ideal S16384x128 .f32) : k0_pay6 (F := Ideal) x0 = fun i => bin (x0 i) := by
  simp only [k0_pay6, k0_pay4, shapeCast_self]
  rfl

/-! ### Row r of a stack of ten 1 x 128 rows over a 6 x 128 block is the r-th row -/

section Cat
variable {α : Type} (p0 p1 p2 p3 p4 p5 p6 p7 p8 p9 : S1x128.Idx → α) (z : S6x128.Idx → α)
  (hc : Shape.Concatenates [S1x128, S1x128, S1x128, S1x128, S1x128, S1x128, S1x128, S1x128, S1x128, S1x128, S6x128] S16x128 0)
  (l : Fin 128)

theorem cat_row_0 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨0, by decide⟩ : Fin 16) l) = p0 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨0, by decide⟩ : Fin 16) l)
    0 (by simp) S1x128 p0 rfl rfl 0 rfl (ix2 (0 : Fin 1) l)
    (fun b hb => by match b with | ⟨0, _⟩ => exact absurd rfl hb | ⟨1, _⟩ => rfl) rfl
theorem cat_row_1 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨1, by decide⟩ : Fin 16) l) = p1 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨1, by decide⟩ : Fin 16) l)
    1 (by simp) S1x128 p1 rfl rfl 1 rfl (ix2 (0 : Fin 1) l)
    (fun b hb => by match b with | ⟨0, _⟩ => exact absurd rfl hb | ⟨1, _⟩ => rfl) rfl
theorem cat_row_2 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨2, by decide⟩ : Fin 16) l) = p2 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨2, by decide⟩ : Fin 16) l)
    2 (by simp) S1x128 p2 rfl rfl 2 rfl (ix2 (0 : Fin 1) l)
    (fun b hb => by match b with | ⟨0, _⟩ => exact absurd rfl hb | ⟨1, _⟩ => rfl) rfl
theorem cat_row_3 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨3, by decide⟩ : Fin 16) l) = p3 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨3, by decide⟩ : Fin 16) l)
    3 (by simp) S1x128 p3 rfl rfl 3 rfl (ix2 (0 : Fin 1) l)
    (fun b hb => by match b with | ⟨0, _⟩ => exact absurd rfl hb | ⟨1, _⟩ => rfl) rfl
theorem cat_row_4 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨4, by decide⟩ : Fin 16) l) = p4 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨4, by decide⟩ : Fin 16) l)
    4 (by simp) S1x128 p4 rfl rfl 4 rfl (ix2 (0 : Fin 1) l)
    (fun b hb => by match b with | ⟨0, _⟩ => exact absurd rfl hb | ⟨1, _⟩ => rfl) rfl
theorem cat_row_5 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨5, by decide⟩ : Fin 16) l) = p5 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨5, by decide⟩ : Fin 16) l)
    5 (by simp) S1x128 p5 rfl rfl 5 rfl (ix2 (0 : Fin 1) l)
    (fun b hb => by match b with | ⟨0, _⟩ => exact absurd rfl hb | ⟨1, _⟩ => rfl) rfl
theorem cat_row_6 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨6, by decide⟩ : Fin 16) l) = p6 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨6, by decide⟩ : Fin 16) l)
    6 (by simp) S1x128 p6 rfl rfl 6 rfl (ix2 (0 : Fin 1) l)
    (fun b hb => by match b with | ⟨0, _⟩ => exact absurd rfl hb | ⟨1, _⟩ => rfl) rfl
theorem cat_row_7 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨7, by decide⟩ : Fin 16) l) = p7 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨7, by decide⟩ : Fin 16) l)
    7 (by simp) S1x128 p7 rfl rfl 7 rfl (ix2 (0 : Fin 1) l)
    (fun b hb => by match b with | ⟨0, _⟩ => exact absurd rfl hb | ⟨1, _⟩ => rfl) rfl
theorem cat_row_8 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨8, by decide⟩ : Fin 16) l) = p8 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨8, by decide⟩ : Fin 16) l)
    8 (by simp) S1x128 p8 rfl rfl 8 rfl (ix2 (0 : Fin 1) l)
    (fun b hb => by match b with | ⟨0, _⟩ => exact absurd rfl hb | ⟨1, _⟩ => rfl) rfl
theorem cat_row_9 : concatenate S16x128 0 [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨9, by decide⟩ : Fin 16) l) = p9 (ix2 (0 : Fin 1) l) :=
  concatenate_apply_piece (t := S16x128) (0 : Fin 2) [⟨S1x128, p0⟩, ⟨S1x128, p1⟩, ⟨S1x128, p2⟩, ⟨S1x128, p3⟩, ⟨S1x128, p4⟩, ⟨S1x128, p5⟩, ⟨S1x128, p6⟩, ⟨S1x128, p7⟩, ⟨S1x128, p8⟩, ⟨S1x128, p9⟩, ⟨S6x128, z⟩] hc (ix2 (⟨9, by decide⟩ : Fin 16) l)
    9 (by simp) S1x128 p9 rfl rfl 9 rfl (ix2 (0 : Fin 1) l)
    (fun b hb => by match b with | ⟨0, _⟩ => exact absurd rfl hb | ⟨1, _⟩ => rfl) rfl
end Cat

/-- THE TILE'S CONTRIBUTION: in row r < 10 and lane l the accumulator gains the sum over the tile's rows of the
    contributions to bin r. -/
theorem stack_apply (x0 x1 : FVec Ideal S16384x128 .f32) (acc : FVec Ideal S16x128 .f32) (r : Fin 10) (l : Fin 128) :
    stack (F := Ideal) x0 x1 acc (ix2 (Fin.castLE (by decide : 10 ≤ 16) r) l)
      = acc (ix2 (Fin.castLE (by decide : 10 ≤ 16) r) l)
        + ∑ row : Fin 16384, term (BitVec.ofNat 32 r.val) (x0 (ix2 row l)) (x1 (ix2 row l)) := by
  have key : ∀ b : BitVec 32, rowpay (k0_pay5 (F := Ideal) x0 x1) (k0_pay6 (F := Ideal) x0) b (ix2 (0 : Fin 1) l)
      = ∑ row : Fin 16384, term b (x0 (ix2 row l)) (x1 (ix2 row l)) := by
    intro b
    rw [rowpay_apply, pay5_eq, pay6_eq]
    rfl
  rw [stack_eq, shapeCast_self]
  show acc _ + concatenate S16x128 0 _ _ _ = _
  refine congrArg (HAdd.hAdd (acc (ix2 (Fin.castLE (by decide : 10 ≤ 16) r) l))) ?_
  match r with
  | ⟨0, _⟩ => exact (cat_row_0 _ _ _ _ _ _ _ _ _ _ _ _ l).trans (key 0#32)
  | ⟨1, _⟩ => exact (cat_row_1 _ _ _ _ _ _ _ _ _ _ _ _ l).trans (key 1#32)
  | ⟨2, _⟩ => exact (cat_row_2 _ _ _ _ _ _ _ _ _ _ _ _ l).trans (key 2#32)
  | ⟨3, _⟩ => exact (cat_row_3 _ _ _ _ _ _ _ _ _ _ _ _ l).trans (key 3#32)
  | ⟨4, _⟩ => exact (cat_row_4 _ _ _ _ _ _ _ _ _ _ _ _ l).trans (key 4#32)
  | ⟨5, _⟩ => exact (cat_row_5 _ _ _ _ _ _ _ _ _ _ _ _ l).trans (key 5#32)
  | ⟨6, _⟩ => exact (cat_row_6 _ _ _ _ _ _ _ _ _ _ _ _ l).trans (key 6#32)
  | ⟨7, _⟩ => exact (cat_row_7 _ _ _ _ _ _ _ _ _ _ _ _ l).trans (key 7#32)
  | ⟨8, _⟩ => exact (cat_row_8 _ _ _ _ _ _ _ _ _ _ _ _ l).trans (key 8#32)
  | ⟨9, _⟩ => exact (cat_row_9 _ _ _ _ _ _ _ _ _ _ _ _ l).trans (key 9#32)

end Cert.KernelIdeal.Calib

end
-- ==== Proof.Blocks.lean ====
/-
  A tile's input blocks read off the flat arguments.  Before the region the host reshapes each flat argument of
  2^25 entries into 262144 rows of 128 lanes; the region's point t (core t / 8, tile t % 8) stages rows
  [16384 t, 16384 (t + 1)).  So the block's entry (row, l) is the flat argument's entry (16384 t + row) * 128 + l.
-/
import proofs.«149983_j14637248544967_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Calib

open Idealize.ShloMosaic Idealize.ShloMosaic.TcCoe Idealize.SL.Sem Cert.KernelIdeal Cert.KernelIdeal.Gen
open Idealize.ShloMosaic.ValueIdx Idealize.ShloMosaic.StableHlo

variable {F : FTy → Type} [FloatOps F]
variable (m : (ℓ : Loc nD τ sig) → Buf (Elt F) ℓ)

/-- What the region finds in the first window's array: the first argument in 262144 rows of 128. -/
theorem V_v0 (c : Dev nD) : (V m c main_v0 : S262144x128.Idx → Elt F .f32)
    = shapeCast S262144x128 (m ((c : Thread nD τ).loc main_arg0)) shapeCasts_S33554432_S262144x128 := by
  show StableHlo.after hostOps0 (fun b => m (c, b)) (Proc.devRef .tc main_v0) = _
  after_results
  rfl

/-- What the region finds in the second window's array: the second argument in 262144 rows of 128. -/
theorem V_v1 (c : Dev nD) : (V m c main_v1 : S262144x128.Idx → Elt F .f32)
    = shapeCast S262144x128 (m ((c : Thread nD τ).loc main_arg1)) shapeCasts_S33554432_S262144x128 := by
  show StableHlo.after hostOps0 (fun b => m (c, b)) (Proc.devRef .tc main_v1) = _
  after_results
  rfl

/-- Both input windows' block index at point t is (t, 0): decided over the sixteen points. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The first block of point t at (row, l) is the first argument at (16384 t + row) * 128 + l. -/
theorem iblk0_apply (c : Dev nD) (t : Fin cfg0.N) (row : Fin 16384) (l : Fin 128)
    (h : (t.val * 16384 + row.val) * 128 + l.val < 33554432) :
    iblk m c 0 t (ix2 row l) = m ((c : Thread nD τ).loc main_arg0) (ix1 ⟨(t.val * 16384 + row.val) * 128 + l.val, h⟩) := by
  obtain ⟨e0, e1, _, _⟩ := in_index t
  unfold iblk
  rw [View.read_apply]
  show V m c main_v0 (((cfg0.win 0).blk t).view.emb (ix2 row l)) = _
  rw [V_v0]
  refine shapeCast_apply (s := S33554432) (t := S262144x128) (m ((c : Thread nD τ).loc main_arg0)) shapeCasts_S33554432_S262144x128 _ _ ?_
  rw [Shape.rowMajor_val_two, Shape.rowMajor_val_one]
  show (t.val * 16384 + row.val) * 128 + l.val
    = (win0_0.index t (0 : Fin 2) * 16384 + 1 * row.val) * 128 + (win0_0.index t (1 : Fin 2) * 128 + 1 * l.val)
  rw [e0, e1]
  omega

/-- The second block of point t at (row, l) is the second argument at (16384 t + row) * 128 + l. -/
theorem iblk1_apply (c : Dev nD) (t : Fin cfg0.N) (row : Fin 16384) (l : Fin 128)
    (h : (t.val * 16384 + row.val) * 128 + l.val < 33554432) :
    iblk m c 1 t (ix2 row l) = m ((c : Thread nD τ).loc main_arg1) (ix1 ⟨(t.val * 16384 + row.val) * 128 + l.val, h⟩) := by
  obtain ⟨_, _, e0, e1⟩ := in_index t
  unfold iblk
  rw [View.read_apply]
  show V m c main_v1 (((cfg0.win 1).blk t).view.emb (ix2 row l)) = _
  rw [V_v1]
  refine shapeCast_apply (s := S33554432) (t := S262144x128) (m ((c : Thread nD τ).loc main_arg1)) shapeCasts_S33554432_S262144x128 _ _ ?_
  rw [Shape.rowMajor_val_two, Shape.rowMajor_val_one]
  show (t.val * 16384 + row.val) * 128 + l.val
    = (win0_1.index t (0 : Fin 2) * 16384 + 1 * row.val) * 128 + (win0_1.index t (1 : Fin 2) * 128 + 1 * l.val)
  rw [e0, e1]
  omega

end Cert.KernelIdeal.Calib

end
-- ==== Proof.Flat.lean ====
/-
  A flat array of 2^25 entries read at a natural number, and one element's contribution to a bin in those terms.
-/
import proofs.«149983_j14637248544967_2_alg».proof.Proof.Spec

noncomputable section

namespace Cert.Calib

open Idealize.ShloMosaic Idealize.ShloMosaic.ValueIdx

/-- Entry e of a flat array of 2^25 entries; zero past the end. -/
def flat (x : (⟨1, ![33554432]⟩ : Shape).Idx → EReal) (e : ℕ) : EReal :=
  if h : e < 33554432 then x (ix1 ⟨e, h⟩) else 0

theorem flat_lt (x : (⟨1, ![33554432]⟩ : Shape).Idx → EReal) (e : ℕ) (h : e < 33554432) : flat x e = x (ix1 ⟨e, h⟩) :=
  dif_pos h

/-- Element e's contribution to bin r: x_e - y_e when x_e falls in bin r. -/
def contrib (x y : (⟨1, ![33554432]⟩ : Shape).Idx → EReal) (r : Fin 10) (e : ℕ) : EReal :=
  term (BitVec.ofNat 32 r.val) (flat x e) (flat y e)

/-- The sum of the contributions over the array's index type is the sum over the first 2^25 numbers. -/
theorem sum_fin_contrib (x y : (⟨1, ![33554432]⟩ : Shape).Idx → EReal) (r : Fin 10) :
    ∑ e : Fin 33554432, term (BitVec.ofNat 32 r.val) (x (ix1 e)) (y (ix1 e))
      = ∑ e ∈ Finset.range 33554432, contrib x y r e := by
  rw [Finset.sum_range]
  refine Finset.sum_congr rfl fun e _ => ?_
  unfold contrib
  rw [flat_lt x e.val e.isLt, flat_lt y e.val e.isLt]

end Cert.Calib

end
-- ==== Proof.Tail.lean ====
/-
  The last steps both programs share: from the ten per-bin sums, the sum of their absolute values divided by the
  element count 2^25.
-/
import Idealize.ShloMosaic.PureOps.Ideal

noncomputable section

namespace Cert.Calib

open Idealize.ShloMosaic

/-- The statistic from the ten per-bin sums S_b: (the sum over b of |S_b|) / 2^25, as the host computes it. -/
def tail10 (z : (⟨1, ![10]⟩ : Shape).Idx → Ideal .f32) : (⟨0, ![]⟩ : Shape).Idx → Ideal .f32 :=
  Host.divf (F := Ideal)
    (Host.reduceAdd (F := Ideal) (axes := [0]) (t := ⟨0, ![]⟩) (Host.absf (F := Ideal) z)
      (constant (F := Ideal) ⟨0, ![]⟩ .f32 0x00000000#32) (by decide) (by decide))
    (constant (F := Ideal) ⟨0, ![]⟩ .f32 0x4C000000#32)

end Cert.Calib

end
-- ==== Proof.KernelValue.lean ====
/-
  The kernel's ten per-bin sums.  A tile adds, in accumulator row r and lane l, the contributions to bin r of its
  rows' entries in lane l; a core's eight tiles add up in the accumulator; the host then adds the two cores and the
  128 lanes.  Altogether row r < 10 collects the contribution to bin r of every element exactly once: the element
  at flat index ((8 q + j) * 16384 + row) * 128 + l is met at core q, tile j, row `row`, lane l.
-/
import proofs.«149983_j14637248544967_2_alg».proof.Proof.Result
import proofs.«149983_j14637248544967_2_alg».proof.Proof.Payload
import proofs.«149983_j14637248544967_2_alg».proof.Proof.Blocks
import proofs.«149983_j14637248544967_2_alg».proof.Proof.Flat
import proofs.«149983_j14637248544967_2_alg».proof.Proof.Tail

set_option maxRecDepth 16384

noncomputable section

namespace Cert.KernelIdeal.Calib

open Idealize.ShloMosaic Idealize.ShloMosaic.TcCoe Idealize.SL.Sem Cert.KernelIdeal Cert.KernelIdeal.Gen
open Idealize.ShloMosaic.ValueIdx Cert.Calib

variable (m : (ℓ : Loc nD τ sig) → Buf (Elt Ideal) ℓ)

/-- The two flat arguments on core c. -/
abbrev X0 (c : Dev nD) : S33554432.Idx → EReal := m ((c : Thread nD τ).loc main_arg0)
abbrev X1 (c : Dev nD) : S33554432.Idx → EReal := m ((c : Thread nD τ).loc main_arg1)

/-- A tile's contributions to bin r in lane l, over the flat index. -/
theorem tile_sum (c : Dev nD) (r : Fin 10) (l : Fin 128) (t : Fin cfg0.N) :
    ∑ row : Fin 16384, term (BitVec.ofNat 32 r.val) (iblk m c 0 t (ix2 row l)) (iblk m c 1 t (ix2 row l))
      = ∑ row ∈ Finset.range 16384, contrib (X0 m c) (X1 m c) r ((t.val * 16384 + row) * 128 + l.val) := by
  rw [Finset.sum_range]
  refine Finset.sum_congr rfl fun row _ => ?_
  have hN : cfg0.N = 16 := N_0
  have hb : (t.val * 16384 + row.val) * 128 + l.val < 33554432 := by
    have := t.isLt; have := row.isLt; have := l.isLt; omega
  unfold contrib
  rw [iblk0_apply m c t row l hb, iblk1_apply m c t row l hb, flat_lt _ _ hb, flat_lt _ _ hb]

/-- The zero fill is zero. -/
theorem pay3_apply (i : S16x128.Idx) : k0_pay3 (F := Ideal) i = 0 := by
  simp only [k0_pay3, shapeCast_self]
  exact Ideal.ofBits_zero_f32

/-- THE ACCUMULATOR, row r < 10 and lane l, after point n: the contributions to bin r, in lane l, of the tiles of
    n's core up to n. -/
theorem acc_apply (c : Dev nD) (r : Fin 10) (l : Fin 128) : ∀ (n : ℕ) (h : n < cfg0.N),
    accAfter m c n h (ix2 (Fin.castLE (by decide : 10 ≤ 16) r) l)
      = ∑ j ∈ Finset.range (n % 8 + 1), ∑ row ∈ Finset.range 16384,
          contrib (X0 m c) (X1 m c) r (((8 * (n / 8) + j) * 16384 + row) * 128 + l.val)
  | 0, h => by
    refine (stack_apply _ _ _ r l).trans ?_
    rw [pay3_apply, zero_add, tile_sum m c r l ⟨0, h⟩]
    simp
  | n + 1, h => by
    have hN : cfg0.N = 16 := N_0
    by_cases h0 : (n + 1) % 8 = 0
    · have e : accAfter m c (n + 1) h
          = stack (iblk m c 0 ⟨n + 1, h⟩) (iblk m c 1 ⟨n + 1, h⟩) (k0_pay3 (F := Ideal)) := by
        simp only [accAfter, if_pos h0]
      rw [e]
      refine (stack_apply _ _ _ r l).trans ?_
      rw [pay3_apply, zero_add, tile_sum m c r l ⟨n + 1, h⟩, h0, Nat.zero_add, Finset.sum_range_one]
      have e8 : 8 * ((n + 1) / 8) + 0 = n + 1 := by omega
      rw [e8]
    · have e : accAfter m c (n + 1) h
          = stack (iblk m c 0 ⟨n + 1, h⟩) (iblk m c 1 ⟨n + 1, h⟩) (accAfter m c n (Nat.lt_of_succ_lt h)) := by
        simp only [accAfter, if_neg h0]
      rw [e]
      refine (stack_apply _ _ _ r l).trans ?_
      rw [acc_apply c r l n, tile_sum m c r l ⟨n + 1, h⟩]
      have e1 : (n + 1) % 8 + 1 = (n % 8 + 1) + 1 := by omega
      have e2 : (n + 1) / 8 = n / 8 := by omega
      have e3 : 8 * (n / 8) + (n % 8 + 1) = n + 1 := by omega
      rw [e1, e2]
      conv_rhs => rw [Finset.sum_range_succ, e3]

/-- The result array's entry (q, r, l), r < 10: the contributions to bin r, in lane l, of core q's eight tiles. -/
theorem out_apply (c : Dev nD) (r : Fin 10) (q : Fin 2) (l : Fin 128) :
    outArr m c (ix3 q (Fin.castLE (by decide : 10 ≤ 16) r) l)
      = ∑ j ∈ Finset.range 8, ∑ row ∈ Finset.range 16384,
          contrib (X0 m c) (X1 m c) r (((8 * q.val + j) * 16384 + row) * 128 + l.val) := by
  have hN : cfg0.N = 16 := N_0
  rw [outArr_apply m c (ix3 q (Fin.castLE (by decide : 10 ≤ 16) r) l) (8 * q.val + 7) (by omega)
    (Fin.castLE (by decide : 10 ≤ 16) r) l rfl rfl rfl, acc_apply]
  have e1 : (8 * q.val + 7) % 8 + 1 = 8 := by omega
  have e2 : (8 * q.val + 7) / 8 = q.val := by omega
  rw [e1, e2]

/-! ### The host's sum over cores and lanes -/

/-- The indices of a 2 x 16 x 128 array as triples. -/
def idx3 : S2x16x128.Idx ≃ Fin 2 × Fin 16 × Fin 128 where
  toFun i := (i 0, i 1, i 2)
  invFun p := ix3 p.1 p.2.1 p.2.2
  left_inv i := (eq_ix3 i).symm
  right_inv _ := rfl

/-- Dropping the core and lane axes of (q, p, l) leaves the row p. -/
theorem drop_ix3 (h : S2x16x128.ReducesTo [0, 2] S16) (q : Fin 2) (p : Fin 16) (l : Fin 128) :
    h.drop (ix3 q p l) = ix1 p := by
  funext b
  match b with
  | ⟨0, _⟩ => exact Fin.ext (Shape.ReducesTo.drop_apply_val_of_eq h (ix3 q p l) 0 1)

/-- The entries a sum over cores and lanes collects at row p are the (q, p, l). -/
theorem sum_filter_drop (h : S2x16x128.ReducesTo [0, 2] S16) (f : S2x16x128.Idx → EReal) (p : Fin 16) :
    ∑ i ∈ Finset.univ.filter (fun i => h.drop i = ix1 p), f i = ∑ q : Fin 2, ∑ l : Fin 128, f (ix3 q p l) := by
  rw [Finset.sum_filter, ← idx3.symm.sum_comp, Fintype.sum_prod_type]
  refine Finset.sum_congr rfl fun q _ => ?_
  rw [Fintype.sum_prod_type]
  show ∑ p' : Fin 16, ∑ l : Fin 128, (if h.drop (ix3 q p' l) = ix1 p then f (ix3 q p' l) else 0) = _
  rw [Finset.sum_eq_single p]
  · refine Finset.sum_congr rfl fun l _ => ?_
    rw [drop_ix3, if_pos rfl]
  · intro p' _ hp
    refine Finset.sum_eq_zero fun l _ => ?_
    rw [drop_ix3, if_neg]
    intro he
    exact hp (congrFun he 0)
  · intro hp
    exact absurd (Finset.mem_univ p) hp

/-- The kernel's ten per-bin sums: the result array summed over cores and lanes, its first ten rows. -/
def zK (c : Dev nD) : S10.Idx → EReal :=
  extractStridedSlice S10 ![0]
    (Host.reduceAdd (F := Ideal) (outArr m c) (constant (F := Ideal) S_ .f32 0x00000000#32) reducesTo_S2x16x128_S16_d0_2 h_S_)
    slices_S16_S10_0

/-- The host operations after the region are the shared last steps of those ten sums. -/
theorem tailK_eq (c : Dev nD) : tailK (F := Ideal) (outArr m c) = tail10 (zK m c) := rfl

/-- THE KERNEL'S PER-BIN SUM r is the sum over all 2^25 elements of their contributions to bin r. -/
theorem zK_apply (c : Dev nD) (r : Fin 10) :
    zK m c (ix1 r) = ∑ e ∈ Finset.range 33554432, contrib (X0 m c) (X1 m c) r e := by
  unfold zK
  rw [extractStridedSlice_apply ![0] _ slices_S16_S10_0 (ix1 r) (ix1 (Fin.castLE (by decide : 10 ≤ 16) r))
    (fun a => match a with | ⟨0, _⟩ => by show r.val = 0 + r.val; omega)]
  show Ideal.hostReduceAdd reducesTo_S2x16x128_S16_d0_2 (outArr m c) (Ideal.ofBits .f32 0x00000000#32)
    (ix1 (Fin.castLE (by decide : 10 ≤ 16) r)) = _
  unfold Ideal.hostReduceAdd
  rw [Ideal.ofBits_zero_f32, zero_add, sum_filter_drop, ← sum_tiles, Finset.sum_range]
  refine Finset.sum_congr rfl fun q _ => ?_
  rw [Finset.sum_range]
  refine Finset.sum_congr rfl fun l _ => ?_
  exact out_apply m c r q l

end Cert.KernelIdeal.Calib

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.RefValue.lean ====
/-
  The reference, bin by bin.  It computes every element's bin, scatters the confidences into eleven accumulators by
  bin and the correctnesses likewise, drops the eleventh, subtracts and finishes with the shared last steps.  An
  accumulating scatter adds to accumulator b the values of the elements whose index is b, so for b < 10 the
  difference of the two accumulators is (sum of x over bin b) - (sum of y over bin b), which over real inputs is the
  sum over bin b of x - y.
-/
import proofs.«149983_j14637248544967_2_alg».proof.Proof.Gen.ReferenceIdeal.Read
import proofs.«149983_j14637248544967_2_alg».proof.Proof.Spec
import proofs.«149983_j14637248544967_2_alg».proof.Proof.Tail
import proofs.«149983_j14637248544967_2_alg».proof.Proof.LibDegree

noncomputable section

namespace Cert.ReferenceIdeal.RefValue

open Cert.ReferenceIdeal Cert.ReferenceIdeal.Gen Cert.ReferenceIdeal.Read Idealize.ShloMosaic
open Idealize.ShloMosaic.ValueIdx Cert.Calib Cert.Sums

/-- The reference's clamped index of an element is its bin. -/
theorem v4_apply (x0 : FVec Ideal S33554432 .f32) (i : S33554432.Idx) : val_main_v4 (F := Ideal) x0 i = bin (x0 i) := by
  rw [val_main_v4_apply, val_main_call0_v4_apply, val_main_call0_v3_apply, val_main_c_0_apply, val_main_call0_v2_apply,
    val_main_call0_v1_apply, val_main_call0_v0_apply, val_main_c_apply, val_main_v3_apply, val_main_v2_apply,
    val_main_v1_apply, val_main_v0_apply, val_main_cst_apply]
  rfl

/-- The index array's entry (e, 0) is element e's bin. -/
theorem v6_apply (x0 : FVec Ideal S33554432 .f32) (e : Fin 33554432) :
    val_main_v6 (F := Ideal) x0 (ix2 e (0 : Fin 1)) = bin (x0 (ix1 e)) := by
  rw [val_main_v6_apply, v4_apply]
  have hi : idx_main_v6 (ix2 e (0 : Fin 1)) = ix1 e := by
    funext a
    match a with
    | ⟨0, _⟩ => rfl
  rw [hi]

/-- A scatter by bin read at accumulator b: its initial value plus the values of the elements whose bin is b. -/
theorem scatter_apply (x0 u : FVec Ideal S33554432 .f32) (z : FVec Ideal S11 .f32) (b : Fin 11) :
    Host.scatterAdd (F := Ideal) scatter_S11_S33554432x1_S33554432_n_0_0_1 z (val_main_v6 (F := Ideal) x0) u (ix1 b)
      = z (ix1 b) + ∑ e : Fin 33554432, if bin (x0 (ix1 e)) = BitVec.ofNat 32 b.val then u (ix1 e) else 0 := by
  show Ideal.hostScatterAdd scatter_S11_S33554432x1_S33554432_n_0_0_1 z (val_main_v6 (F := Ideal) x0) u (ix1 b) = _
  unfold Ideal.hostScatterAdd
  refine congrArg (HAdd.hAdd (z (ix1 b))) ?_
  rw [Finset.sum_filter, ← (Cert.Sage.flatEquiv (E := 33554432)).symm.sum_comp]
  refine Finset.sum_congr rfl fun e _ => ?_
  show (if ScatterDims.resultIdx? scatter_S11_S33554432x1_S33554432_n_0_0_1 (ix1 e) (val_main_v6 (F := Ideal) x0) = some (ix1 b)
      then u (ix1 e) else 0) = _
  refine if_congr ((Cert.Sage.flat_lands (N := 11) (E := 33554432) scatter_S11_S33554432x1_S33554432_n_0_0_1_wf
    (val_main_v6 (F := Ideal) x0) e b).trans ?_) rfl rfl
  rw [v6_apply]
  exact eq_ofNat_iff _ b

/-- THE REFERENCE'S PER-BIN SUMS: over real inputs, the difference of the two accumulators of bin r < 10 is the sum
    over the elements of their contributions to bin r. -/
theorem v13_apply (x0 x1 : FVec Ideal S33554432 .f32) (a0 a1 : Fin 33554432 → ℝ)
    (h0 : ∀ e, x0 (ix1 e) = (a0 e : EReal)) (h1 : ∀ e, x1 (ix1 e) = (a1 e : EReal)) (r : Fin 10) :
    val_main_v13 (F := Ideal) x0 x1 (ix1 r)
      = ∑ e : Fin 33554432, term (BitVec.ofNat 32 r.val) (x0 (ix1 e)) (x1 (ix1 e)) := by
  have hi11 : idx_main_v11 (ix1 r) = ix1 (Fin.castLE (by decide : 10 ≤ 11) r) := by
    funext a
    match a with
    | ⟨0, _⟩ => rfl
  have hi12 : idx_main_v12 (ix1 r) = ix1 (Fin.castLE (by decide : 10 ≤ 11) r) := by
    funext a
    match a with
    | ⟨0, _⟩ => rfl
  rw [val_main_v13_apply, val_main_v11_apply, val_main_v12_apply, hi11, hi12]
  unfold val_main_v7 val_main_v10
  rw [show val_main_v9 (F := Ideal) x0 = val_main_v6 (F := Ideal) x0 from rfl]
  rw [scatter_apply, scatter_apply, val_main_v5_apply, val_main_v8_apply, val_main_cst_1_apply, val_main_cst_2_apply]
  show (Ideal.ofBits .f32 0x00000000#32 + _) - (Ideal.ofBits .f32 0x00000000#32 + _) = _
  rw [Ideal.ofBits_zero_f32, zero_add, zero_add]
  have e0 : ∀ e : Fin 33554432, (if bin (x0 (ix1 e)) = BitVec.ofNat 32 (Fin.castLE (by decide : 10 ≤ 11) r).val then x0 (ix1 e) else 0)
      = if bin (x0 (ix1 e)) = BitVec.ofNat 32 r.val then (a0 e : EReal) else 0 := fun e => by rw [h0 e]; rfl
  have e1 : ∀ e : Fin 33554432, (if bin (x0 (ix1 e)) = BitVec.ofNat 32 (Fin.castLE (by decide : 10 ≤ 11) r).val then x1 (ix1 e) else 0)
      = if bin (x0 (ix1 e)) = BitVec.ofNat 32 r.val then (a1 e : EReal) else 0 := fun e => by rw [h1 e]; rfl
  rw [Finset.sum_congr rfl fun e _ => e0 e, Finset.sum_congr rfl fun e _ => e1 e, sub_masked_sums]
  refine Finset.sum_congr rfl fun e _ => ?_
  unfold term
  rw [h0 e, h1 e]

/-- The reference's result is the shared last steps of its ten per-bin differences. -/
theorem v16_eq (x0 x1 : FVec Ideal S33554432 .f32) :
    val_main_v16 (F := Ideal) x0 x1 = tail10 (val_main_v13 (F := Ideal) x0 x1) := rfl

end Cert.ReferenceIdeal.RefValue

end
-- ==== Proof.Finite.lean ====
/-
  What the precondition gives: every entry of both arguments is a real number.  The precondition says that
  |x| < +inf holds at every entry of both arrays (two conjunctions over all entries, joined by "and"); on the
  extended reals |x| = max x (-x) is below +inf only for real x.
-/
import proofs.«149983_j14637248544967_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The word 0x7F800000 is +inf. -/
theorem top_eq : Ideal.ofBits .f32 0x7F800000#32 = ⊤ := by simp [Ideal.ofBits, Ideal.ieee]

/-- An extended real whose absolute value is below +inf is a real number. -/
theorem real_of_abs_lt (x : EReal) (h : max x (-x) < ⊤) : ∃ a : ℝ, x = (a : EReal) := by
  induction x using EReal.rec with
  | bot => simp at h
  | coe a => exact ⟨a, rfl⟩
  | top => simp at h

/-- An ordered less-than that answered 1 is a strict inequality. -/
theorem lt_of_cmp_olt (a b : EReal) (h : Ideal.cmp .olt a b = 1#1) : a < b := by
  unfold Ideal.cmp at h
  by_contra hn
  simp [hn] at h

/-- One array whose |x| < +inf test is 1 everywhere holds real numbers. -/
theorem real_of_test [Facts] (x : FVec Ideal S33554432 .f32) (i : S33554432.Idx)
    (h : cmpf .olt (Host.absf x) (broadcastInDim S33554432 ![] Facts.bcast_S_S33554432 (constant (F := Ideal) S_ .f32 0x7F800000#32)) i = 1#1) :
    ∃ a : ℝ, x i = (a : EReal) := by
  have hb : broadcastInDim S33554432 ![] Facts.bcast_S_S33554432 (constant (F := Ideal) S_ .f32 0x7F800000#32) i
      = Ideal.ofBits .f32 0x7F800000#32 :=
    broadcastInDim_apply _ Facts.bcast_S_S33554432 _ i ix0 (fun a => a.elim0)
  have h' : Ideal.cmp .olt (max (x i) (-(x i))) (broadcastInDim S33554432 ![] Facts.bcast_S_S33554432 (constant (F := Ideal) S_ .f32 0x7F800000#32) i) = 1#1 := h
  rw [hb, top_eq] at h'
  exact real_of_abs_lt _ (lt_of_cmp_olt _ _ h')

/-- THE PRECONDITION READ: both arguments hold real numbers at every entry. -/
theorem real_of_pre [Facts] (x0 x1 : FVec Ideal S33554432 .f32) (h : fn (F := Ideal) x0 x1 = fun _ => 1#1) :
    (∀ i, ∃ a : ℝ, x0 i = (a : EReal)) ∧ (∀ i, ∃ a : ℝ, x1 i = (a : EReal)) := by
  have h' := congrFun h ix0
  dsimp only [fn] at h'
  obtain ⟨ha, hb⟩ := IntOp.andi_eq_one.1 h'
  exact ⟨fun i => real_of_test x0 i (Host.reduce_andi_all _ _ _ _ _ ha i),
    fun i => real_of_test x1 i (Host.reduce_andi_all _ _ _ _ _ hb i)⟩

end Cert.Pre_finite_inputs.Finite

end
-- ==== Proof.lean ====
/-
  The claims.  Both programs end in the same last steps applied to ten per-bin sums; the kernel's sum for bin r,
  read off its accumulated result array, and the reference's, read off its two scatters, are both the sum over all
  2^25 elements of the element's contribution to bin r (x - y when x falls in bin r), the reference's only because
  the precondition makes every x and y a real number.  The three frames are the generated runs; the idealization
  rewrote nothing, so `preserves` is trivial.
-/
import proofs.«149983_j14637248544967_2_alg».proof.Defs
import proofs.«149983_j14637248544967_2_alg».proof.Proof.Gen.Kernel
import proofs.«149983_j14637248544967_2_alg».proof.Proof.Gen.Kernel.Skeleton
import proofs.«149983_j14637248544967_2_alg».proof.Proof.Gen.Kernel.Launch
import proofs.«149983_j14637248544967_2_alg».proof.Proof.Gen.Kernel.Points
import proofs.«149983_j14637248544967_2_alg».proof.Proof.Gen.Kernel.Frame
import proofs.«149983_j14637248544967_2_alg».proof.Proof.Gen.KernelIdeal
import proofs.«149983_j14637248544967_2_alg».proof.Proof.Gen.KernelIdeal.Skeleton
import proofs.«149983_j14637248544967_2_alg».proof.Proof.Gen.KernelIdeal.Launch
import proofs.«149983_j14637248544967_2_alg».proof.Proof.Gen.KernelIdeal.Points
import proofs.«149983_j14637248544967_2_alg».proof.Proof.Gen.KernelIdeal.Frame
import proofs.«149983_j14637248544967_2_alg».proof.Proof.Gen.ReferenceIdeal
import proofs.«149983_j14637248544967_2_alg».proof.Proof.Gen.ReferenceIdeal.Run
import proofs.«149983_j14637248544967_2_alg».proof.Proof.Gen.ReferenceIdeal.Read
import proofs.«149983_j14637248544967_2_alg».proof.Proof.Gen.Pre_finite_inputs
import proofs.«149983_j14637248544967_2_alg».proof.Proof.Spec
import proofs.«149983_j14637248544967_2_alg».proof.Proof.KernelValue
import proofs.«149983_j14637248544967_2_alg».proof.Proof.RefValue
import proofs.«149983_j14637248544967_2_alg».proof.Proof.Finite
import Idealize.ShloMosaic.Adequacy
import Idealize.ShloMosaic.Init

noncomputable section

namespace Cert.Proof

open Idealize.ShloMosaic Idealize.ShloMosaic.TcCoe Idealize.SL.Sem
open Idealize.ShloMosaic.ValueIdx Cert.Calib

/-- The idealized kernel's run, read: its result is the shared last steps of its ten per-bin sums, and the
    arguments end unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v7)
            = tail10 (Cert.KernelIdeal.Calib.zK m c)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v7 (Pipeline.mem_restRefs_of Cert.KernelIdeal.main_v7 (by decide) (by decide))).trans
        ((Cert.KernelIdeal.Calib.tail_eq m c).trans (Cert.KernelIdeal.Calib.tailK_eq m c)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the shared last steps of the same ten sums. -/
theorem algebraic : Cert.algebraic_KernelIdeal_ReferenceIdeal := by
  intro m ρ m' ρ' hpre hagree
  refine ⟨fun c => tail10 (Cert.KernelIdeal.Calib.zK m c), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.v16_eq, (hagree c).1, (hagree c).2]
  obtain ⟨hf0, hf1⟩ := Cert.Pre_finite_inputs.Finite.real_of_pre _ _ (hpre c)
  choose a0 ha0 using hf0
  choose a1 ha1 using hf1
  refine congrArg tail10 (funext fun j => ?_)
  obtain ⟨r, rfl⟩ : ∃ r : Fin 10, j = ix1 r := ⟨j 0, eq_ix1 j⟩
  rw [Cert.ReferenceIdeal.RefValue.v13_apply _ _ (fun e => a0 (ix1 e)) (fun e => a1 (ix1 e)) (fun e => ha0 _) (fun e => ha1 _) r,
    Cert.KernelIdeal.Calib.zK_apply, sum_fin_contrib]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
